-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S2x16x2048x2048 : Shape := ⟨4, ![2, 16, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S2048x64 : Shape := ⟨2, ![2048, 64]⟩
abbrev S512x64 : Shape := ⟨2, ![512, 64]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 12
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x64, .f32⟩
  | .hbm, ⟨4, _⟩ => ⟨S2x16x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x512x64, .f32⟩
  | .local _ .vmem, ⟨7, _⟩ => ⟨S1x1x512x64, .f32⟩
  | .local _ .vmem, ⟨8, _⟩ => ⟨S1x1x512x2048, .f32⟩
  | .local _ .vmem, ⟨9, _⟩ => ⟨S1x1x512x2048, .f32⟩
  | .local _ .vmem, ⟨10, _⟩ => ⟨S2048x64, .bf16⟩
  | .local _ .vmem, ⟨11, _⟩ => ⟨S2048x64, .bf16⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  reduces_S512x2048_S512 : S512x2048.Reduces [1] S512
  shapeCasts_S512_S512x1 : S512.ShapeCasts S512x1
  broadcasts_S512x1_S512x2048 : S512x1.Broadcasts S512x2048
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  shapeCasts_S512x64_S1x1x512x64 : S512x64.ShapeCasts S1x1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S2x16x2048x64.size a
  hwx0_0 : ∀ i : grid0.Coords, EltTy.bits .f32 = 32 ∨ (Rect.block (s := S2x16x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .f32 = 32 ∨ (Rect.block (s := S2x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .f32 = 32 ∨ (Rect.block (s := S2x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x64.size a ≤ S2x16x2048x64.size a
  hwx0_3 : ∀ i : grid0.Coords, EltTy.bits .f32 = 32 ∨ (Rect.block (s := S2x16x2048x64) S1x1x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x2048.size a ≤ S2x16x2048x2048.size a
  hwx0_4 : ∀ i : grid0.Coords, EltTy.bits .f32 = 32 ∨ (Rect.block (s := S2x16x2048x2048) S1x1x512x2048.size (cc0_transform_4 i) (hinb0_4 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .f32⟩
  | .hbm, ⟨4, _⟩ => ⟨S_, .f32⟩
  | .hbm, ⟨5, _⟩ => ⟨S2x16x2048x2048, .f32⟩
  | .hbm, ⟨6, _⟩ => ⟨S2x16x2048x2048, .f32⟩
  | .hbm, ⟨7, _⟩ => ⟨S_, .f32⟩
  | .hbm, ⟨8, _⟩ => ⟨S2x16x2048, .f32⟩
  | .hbm, ⟨9, _⟩ => ⟨S_, .f32⟩
  | .hbm, ⟨10, _⟩ => ⟨S2x16x2048, .f32⟩
  | .hbm, ⟨11, _⟩ => ⟨S2x16x2048, .f32⟩
  | .hbm, ⟨12, _⟩ => ⟨S2x16x2048x1, .f32⟩
  | .hbm, ⟨13, _⟩ => ⟨S2x16x2048x2048, .f32⟩
  | .hbm, ⟨14, _⟩ => ⟨S2x16x2048x2048, .f32⟩
  | .hbm, ⟨15, _⟩ => ⟨S2x16x2048x2048, .f32⟩
  | .hbm, ⟨16, _⟩ => ⟨S_, .f32⟩
  | .hbm, ⟨17, _⟩ => ⟨S2x16x2048, .f32⟩
  | .hbm, ⟨18, _⟩ => ⟨S2x16x2048x1, .f32⟩
  | .hbm, ⟨19, _⟩ => ⟨S2x16x2048x2048, .f32⟩
  | .hbm, ⟨20, _⟩ => ⟨S2x16x2048x2048, .f32⟩
  | .hbm, ⟨21, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Pieces.lean ====
/-
  What one run of the body leaves in each buffer, as functions of what it read.

  At the first query tile of a head the body first copies the head's key and value blocks into its two carried buffers
  and then computes from those copies; at the other tiles it computes from what the carried buffers already hold. Either
  way each buffer is written by one store of the whole buffer, so what it ends with is that store's value: the carried
  key copy and value copy are the blocks themselves (recast), the score block is the softmax of the logits of the query
  tile against the key copy, the output block is that softmax applied to the value copy.
-/
import proofs.«100479_j3607772528847_2_alg».proof.Proof.Gen.KernelIdeal.Frame
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem zero4 : (![0, 0, 0, 0] : Fin 4 → Nat) = fun _ => 0 := funext fun a => by fin_cases a <;> rfl
theorem zero2 : (![0, 0] : Fin 2 → Nat) = fun _ => 0 := funext fun a => by fin_cases a <;> rfl

/-! ## The first query tile of a head: the copies are made, then used -/

/-- The carried key copy after the first tile: the key block, recast. -/
theorem keys_first (c : Dev nD) (i : grid0.Coords) (arg3 : Memref sig .tc .vmem S1x1x512x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x512x64 .f32) (harg6 : arg6.IsWhole) (arg7 : Memref sig .tc .vmem S1x1x512x2048 .f32) (harg7 : arg7.IsWhole) (arg8 : Memref sig .tc .vmem S2048x64 .bf16) (harg8 : arg8.IsWhole) (arg9 : Memref sig .tc .vmem S2048x64 .bf16) (harg9 : arg9.IsWhole) (hc0 : cond0_0 i)
    (x0 : Vec F S1x1x512x64 .f32) (x1 : Vec F S1x1x2048x64 .f32) (x2 : Vec F S1x1x2048x64 .f32) :
    sout0_A_0 c i arg3 harg3 arg4 harg4 arg5 harg5 arg6 harg6 arg7 harg7 arg8 harg8 arg9 harg9 hc0 x0 x1 x2 = k0_pay1 x1 := by
  unfold sout0_A_0
  rw [View.read_writes_eq_canon _ _ _ (scover0_A_0 c i arg3 harg3 arg4 harg4 arg5 harg5 arg6 harg6 arg7 harg7 arg8 harg8 arg9 harg9 hc0 x0 x1 x2)]
  unfold kernelRun0_A
  dsimp only
  sl_unfold_words
  rw [View.canon_unit_zero (S := S2048x64) zero2]
  simp only [View.readAt_eq_ld, harg4.read_unread, View.ld_unit_zero (S := S1x1x2048x64) zero4]

/-- The carried value copy after the first tile: the value block, recast. -/
theorem values_first (c : Dev nD) (i : grid0.Coords) (arg3 : Memref sig .tc .vmem S1x1x512x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x512x64 .f32) (harg6 : arg6.IsWhole) (arg7 : Memref sig .tc .vmem S1x1x512x2048 .f32) (harg7 : arg7.IsWhole) (arg8 : Memref sig .tc .vmem S2048x64 .bf16) (harg8 : arg8.IsWhole) (arg9 : Memref sig .tc .vmem S2048x64 .bf16) (harg9 : arg9.IsWhole) (hc0 : cond0_0 i)
    (x0 : Vec F S1x1x512x64 .f32) (x1 : Vec F S1x1x2048x64 .f32) (x2 : Vec F S1x1x2048x64 .f32) :
    sout0_A_1 c i arg3 harg3 arg4 harg4 arg5 harg5 arg6 harg6 arg7 harg7 arg8 harg8 arg9 harg9 hc0 x0 x1 x2 = k0_pay2 x2 := by
  unfold sout0_A_1
  rw [View.read_writes_eq_canon _ _ _ (scover0_A_1 c i arg3 harg3 arg4 harg4 arg5 harg5 arg6 harg6 arg7 harg7 arg8 harg8 arg9 harg9 hc0 x0 x1 x2)]
  unfold kernelRun0_A
  dsimp only
  sl_unfold_words
  rw [View.canon_unit_zero (S := S2048x64) zero2]
  simp only [View.readAt_eq_ld, harg5.read_unread, View.ld_unit_zero (S := S1x1x2048x64) zero4]

/-- The output block of the first tile: computed from the copies just made. -/
theorem out_first (c : Dev nD) (i : grid0.Coords) (arg3 : Memref sig .tc .vmem S1x1x512x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x512x64 .f32) (harg6 : arg6.IsWhole) (arg7 : Memref sig .tc .vmem S1x1x512x2048 .f32) (harg7 : arg7.IsWhole) (arg8 : Memref sig .tc .vmem S2048x64 .bf16) (harg8 : arg8.IsWhole) (arg9 : Memref sig .tc .vmem S2048x64 .bf16) (harg9 : arg9.IsWhole) (hc0 : cond0_0 i)
    (x0 : Vec F S1x1x512x64 .f32) (x1 : Vec F S1x1x2048x64 .f32) (x2 : Vec F S1x1x2048x64 .f32) :
    out0_A_3 c i arg3 harg3 arg4 harg4 arg5 harg5 arg6 harg6 arg7 harg7 arg8 harg8 arg9 harg9 hc0 x0 x1 x2 = k0_pay5 x0 (k0_pay1 x1) (k0_pay2 x2) := by
  unfold out0_A_3
  rw [View.read_writes_eq_canon _ _ _ (cover0_A_3 c i arg3 harg3 arg4 harg4 arg5 harg5 arg6 harg6 arg7 harg7 arg8 harg8 arg9 harg9 hc0 x0 x1 x2)]
  unfold kernelRun0_A
  dsimp only
  sl_unfold_words
  rw [View.canon_unit_zero (S := S1x1x512x64) zero4, View.readCov_unit_zero (S := S2048x64) _ zero2,
    View.readCov_unit_zero (S := S2048x64) _ zero2]
  simp only [View.readAt_eq_ld, harg3.read_unread, harg4.read_unread, harg5.read_unread,
    View.ld_unit_zero (S := S1x1x512x64) zero4, View.ld_unit_zero (S := S1x1x2048x64) zero4]

/-- The score block of the first tile. -/
theorem score_first (c : Dev nD) (i : grid0.Coords) (arg3 : Memref sig .tc .vmem S1x1x512x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x512x64 .f32) (harg6 : arg6.IsWhole) (arg7 : Memref sig .tc .vmem S1x1x512x2048 .f32) (harg7 : arg7.IsWhole) (arg8 : Memref sig .tc .vmem S2048x64 .bf16) (harg8 : arg8.IsWhole) (arg9 : Memref sig .tc .vmem S2048x64 .bf16) (harg9 : arg9.IsWhole) (hc0 : cond0_0 i)
    (x0 : Vec F S1x1x512x64 .f32) (x1 : Vec F S1x1x2048x64 .f32) (x2 : Vec F S1x1x2048x64 .f32) :
    out0_A_4 c i arg3 harg3 arg4 harg4 arg5 harg5 arg6 harg6 arg7 harg7 arg8 harg8 arg9 harg9 hc0 x0 x1 x2 = k0_pay4 x0 (k0_pay1 x1) := by
  unfold out0_A_4
  rw [View.read_writes_eq_canon _ _ _ (cover0_A_4 c i arg3 harg3 arg4 harg4 arg5 harg5 arg6 harg6 arg7 harg7 arg8 harg8 arg9 harg9 hc0 x0 x1 x2)]
  unfold kernelRun0_A
  dsimp only
  sl_unfold_words
  rw [View.canon_unit_zero (S := S1x1x512x2048) zero4, View.readCov_unit_zero (S := S2048x64) _ zero2]
  simp only [View.readAt_eq_ld, harg3.read_unread, harg4.read_unread,
    View.ld_unit_zero (S := S1x1x512x64) zero4, View.ld_unit_zero (S := S1x1x2048x64) zero4]

/-! ## The other query tiles: the copies are read as the tile before left them -/

/-- The output block of a later tile, from the carried copies `ks`, `vs`. -/
theorem out_later (c : Dev nD) (i : grid0.Coords) (arg3 : Memref sig .tc .vmem S1x1x512x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x512x64 .f32) (harg6 : arg6.IsWhole) (arg7 : Memref sig .tc .vmem S1x1x512x2048 .f32) (harg7 : arg7.IsWhole) (arg8 : Memref sig .tc .vmem S2048x64 .bf16) (harg8 : arg8.IsWhole) (arg9 : Memref sig .tc .vmem S2048x64 .bf16) (harg9 : arg9.IsWhole) (hc0 : ¬cond0_0 i)
    (x0 : Vec F S1x1x512x64 .f32) (x1 : Vec F S1x1x2048x64 .f32) (x2 : Vec F S1x1x2048x64 .f32) (ks vs : Vec F S2048x64 .bf16) :
    out0_B_3 c i arg3 harg3 arg4 harg4 arg5 harg5 arg6 harg6 arg7 harg7 arg8 harg8 arg9 harg9 hc0 x0 x1 x2 ks vs = k0_pay5 x0 ks vs := by
  unfold out0_B_3
  rw [View.read_writes_eq_canon _ _ _ (cover0_B_3 c i arg3 harg3 arg4 harg4 arg5 harg5 arg6 harg6 arg7 harg7 arg8 harg8 arg9 harg9 hc0 x0 x1 x2 ks vs)]
  unfold kernelRun0_B
  dsimp only
  rw [View.canon_unit_zero (S := S1x1x512x64) zero4]
  simp only [View.readAt_eq_ld, harg3.read_unread, harg8.read_unread, harg9.read_unread,
    View.ld_unit_zero (S := S1x1x512x64) zero4, View.ld_unit_zero (S := S2048x64) zero2]

/-- The score block of a later tile. -/
theorem score_later (c : Dev nD) (i : grid0.Coords) (arg3 : Memref sig .tc .vmem S1x1x512x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x512x64 .f32) (harg6 : arg6.IsWhole) (arg7 : Memref sig .tc .vmem S1x1x512x2048 .f32) (harg7 : arg7.IsWhole) (arg8 : Memref sig .tc .vmem S2048x64 .bf16) (harg8 : arg8.IsWhole) (arg9 : Memref sig .tc .vmem S2048x64 .bf16) (harg9 : arg9.IsWhole) (hc0 : ¬cond0_0 i)
    (x0 : Vec F S1x1x512x64 .f32) (x1 : Vec F S1x1x2048x64 .f32) (x2 : Vec F S1x1x2048x64 .f32) (ks vs : Vec F S2048x64 .bf16) :
    out0_B_4 c i arg3 harg3 arg4 harg4 arg5 harg5 arg6 harg6 arg7 harg7 arg8 harg8 arg9 harg9 hc0 x0 x1 x2 ks vs = k0_pay4 x0 ks := by
  unfold out0_B_4
  rw [View.read_writes_eq_canon _ _ _ (cover0_B_4 c i arg3 harg3 arg4 harg4 arg5 harg5 arg6 harg6 arg7 harg7 arg8 harg8 arg9 harg9 hc0 x0 x1 x2 ks vs)]
  unfold kernelRun0_B
  dsimp only
  rw [View.canon_unit_zero (S := S1x1x512x2048) zero4]
  simp only [View.readAt_eq_ld, harg3.read_unread, harg8.read_unread,
    View.ld_unit_zero (S := S1x1x512x64) zero4, View.ld_unit_zero (S := S2048x64) zero2]

end Cert.KernelIdeal.Pieces

end
-- ==== Proof.Carried.lean ====
/-
  The grid and what the body finds at each point.

  The grid has 128 points, point t being batch t / 64, head (t / 4) mod 16 and query tile t mod 4. The query, output and
  score windows move with all three coordinates (blocks of 512 rows); the key and value windows only with batch and
  head, so the four points of one head see the same key block and the same value block. The body copies these two
  blocks into its carried buffers at the head's first tile and leaves the buffers alone at the other three; so after
  EVERY point the carried buffers hold the copies of that point's own key and value blocks, and at every point the
  output and score blocks are computed from the point's own three blocks.
-/
import proofs.«100479_j3607772528847_2_alg».proof.Proof.Gen.KernelIdeal.Value
import proofs.«100479_j3607772528847_2_alg».proof.Proof.Pieces

set_option maxRecDepth 16384

noncomputable section

namespace Cert.KernelIdeal.Carried

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The block index of each window at point t: (batch, head, tile, 0) for the windows cut along the query positions,
    (batch, head, 0, 0) for the key and value windows. Decided over the 128 points. -/
theorem index_facts : ∀ t : Fin cfg0.N,
    (win0_0.index t (0 : Fin 4) = t.val / 64 ∧ win0_0.index t (1 : Fin 4) = t.val / 4 % 16
      ∧ win0_0.index t (2 : Fin 4) = t.val % 4 ∧ win0_0.index t (3 : Fin 4) = 0)
    ∧ (win0_1.index t (0 : Fin 4) = t.val / 64 ∧ win0_1.index t (1 : Fin 4) = t.val / 4 % 16
      ∧ win0_1.index t (2 : Fin 4) = 0 ∧ win0_1.index t (3 : Fin 4) = 0)
    ∧ (win0_2.index t (0 : Fin 4) = t.val / 64 ∧ win0_2.index t (1 : Fin 4) = t.val / 4 % 16
      ∧ win0_2.index t (2 : Fin 4) = 0 ∧ win0_2.index t (3 : Fin 4) = 0)
    ∧ (win0_3.index t (0 : Fin 4) = t.val / 64 ∧ win0_3.index t (1 : Fin 4) = t.val / 4 % 16
      ∧ win0_3.index t (2 : Fin 4) = t.val % 4 ∧ win0_3.index t (3 : Fin 4) = 0)
    ∧ (win0_4.index t (0 : Fin 4) = t.val / 64 ∧ win0_4.index t (1 : Fin 4) = t.val / 4 % 16
      ∧ win0_4.index t (2 : Fin 4) = t.val % 4 ∧ win0_4.index t (3 : Fin 4) = 0) :=
  (by decide +kernel : ∀ t : Fin grid0.N, _)

/-- Two points of one head see the same key block. -/
theorem keyBlock_eq (c : Dev nD) (t t' : Fin cfg0.N) (h : t.val / 4 = t'.val / 4) :
    (iblk m c 1 t : Vec F S1x1x2048x64 .f32) = iblk m c 1 t' := by
  obtain ⟨-, ⟨a0, a1, a2, a3⟩, -, -, -⟩ := index_facts t
  obtain ⟨-, ⟨b0, b1, b2, b3⟩, -, -, -⟩ := index_facts t'
  funext y
  show V m c main_arg1 (((cfg0.win 1).blk t).view.emb y) = V m c main_arg1 (((cfg0.win 1).blk t').view.emb y)
  refine congrArg (V m c main_arg1) (funext fun a => Fin.ext ?_)
  match a with
  | ⟨0, _⟩ => show win0_1.index t (0 : Fin 4) * 1 + 1 * (y 0).val = win0_1.index t' (0 : Fin 4) * 1 + 1 * (y 0).val; omega
  | ⟨1, _⟩ => show win0_1.index t (1 : Fin 4) * 1 + 1 * (y 1).val = win0_1.index t' (1 : Fin 4) * 1 + 1 * (y 1).val; omega
  | ⟨2, _⟩ => show win0_1.index t (2 : Fin 4) * 2048 + 1 * (y 2).val = win0_1.index t' (2 : Fin 4) * 2048 + 1 * (y 2).val; omega
  | ⟨3, _⟩ => show win0_1.index t (3 : Fin 4) * 64 + 1 * (y 3).val = win0_1.index t' (3 : Fin 4) * 64 + 1 * (y 3).val; omega

/-- Two points of one head see the same value block. -/
theorem valueBlock_eq (c : Dev nD) (t t' : Fin cfg0.N) (h : t.val / 4 = t'.val / 4) :
    (iblk m c 2 t : Vec F S1x1x2048x64 .f32) = iblk m c 2 t' := by
  obtain ⟨-, -, ⟨a0, a1, a2, a3⟩, -, -⟩ := index_facts t
  obtain ⟨-, -, ⟨b0, b1, b2, b3⟩, -, -⟩ := index_facts t'
  funext y
  show V m c main_arg2 (((cfg0.win 2).blk t).view.emb y) = V m c main_arg2 (((cfg0.win 2).blk t').view.emb y)
  refine congrArg (V m c main_arg2) (funext fun a => Fin.ext ?_)
  match a with
  | ⟨0, _⟩ => show win0_2.index t (0 : Fin 4) * 1 + 1 * (y 0).val = win0_2.index t' (0 : Fin 4) * 1 + 1 * (y 0).val; omega
  | ⟨1, _⟩ => show win0_2.index t (1 : Fin 4) * 1 + 1 * (y 1).val = win0_2.index t' (1 : Fin 4) * 1 + 1 * (y 1).val; omega
  | ⟨2, _⟩ => show win0_2.index t (2 : Fin 4) * 2048 + 1 * (y 2).val = win0_2.index t' (2 : Fin 4) * 2048 + 1 * (y 2).val; omega
  | ⟨3, _⟩ => show win0_2.index t (3 : Fin 4) * 64 + 1 * (y 3).val = win0_2.index t' (3 : Fin 4) * 64 + 1 * (y 3).val; omega

/-- AFTER EVERY POINT the carried buffers hold the copies of that point's own key block and value block: made there
    at a head's first tile, kept from the point before (same head, same blocks) at the others. -/
theorem carried (c : Dev nD) : ∀ (n : ℕ) (hn : n < cfg0.N),
    (outsAt0 m c n hn).2.2.1 = k0_pay1 (iblk m c 1 ⟨n, hn⟩) ∧ (outsAt0 m c n hn).2.2.2 = k0_pay2 (iblk m c 2 ⟨n, hn⟩) := by
  intro n
  induction n with
  | zero =>
    intro hn
    rw [outsAt0_A m c ⟨0, hn⟩ (Nat.zero_mod _)]
    dsimp only
    exact ⟨Pieces.keys_first c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩),
      Pieces.values_first c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩)⟩
  | succ k ih =>
    intro hn
    by_cases h0 : (k + 1) % 4 = 0
    · rw [outsAt0_A m c ⟨k + 1, hn⟩ h0]
      dsimp only
      exact ⟨Pieces.keys_first c (grid0.coords ⟨k + 1, hn⟩) (ms0_0 ⟨k + 1, hn⟩) (hs0_0 ⟨k + 1, hn⟩) (ms0_1 ⟨k + 1, hn⟩) (hs0_1 ⟨k + 1, hn⟩) (ms0_2 ⟨k + 1, hn⟩) (hs0_2 ⟨k + 1, hn⟩) (ms0_3 ⟨k + 1, hn⟩) (hs0_3 ⟨k + 1, hn⟩) (ms0_4 ⟨k + 1, hn⟩) (hs0_4 ⟨k + 1, hn⟩) scM0_0 (Memref.isWhole_whole _) scM0_1 (Memref.isWhole_whole _) ((hcond0_0 ⟨k + 1, hn⟩).mpr h0) (iblk m c 0 ⟨k + 1, hn⟩) (iblk m c 1 ⟨k + 1, hn⟩) (iblk m c 2 ⟨k + 1, hn⟩),
        Pieces.values_first c (grid0.coords ⟨k + 1, hn⟩) (ms0_0 ⟨k + 1, hn⟩) (hs0_0 ⟨k + 1, hn⟩) (ms0_1 ⟨k + 1, hn⟩) (hs0_1 ⟨k + 1, hn⟩) (ms0_2 ⟨k + 1, hn⟩) (hs0_2 ⟨k + 1, hn⟩) (ms0_3 ⟨k + 1, hn⟩) (hs0_3 ⟨k + 1, hn⟩) (ms0_4 ⟨k + 1, hn⟩) (hs0_4 ⟨k + 1, hn⟩) scM0_0 (Memref.isWhole_whole _) scM0_1 (Memref.isWhole_whole _) ((hcond0_0 ⟨k + 1, hn⟩).mpr h0) (iblk m c 0 ⟨k + 1, hn⟩) (iblk m c 1 ⟨k + 1, hn⟩) (iblk m c 2 ⟨k + 1, hn⟩)⟩
    · have hk : k < cfg0.N := Nat.lt_of_succ_lt hn
      obtain ⟨ik, iv⟩ := ih hk
      rw [outsAt0_B m c ⟨k + 1, hn⟩ h0]
      dsimp only
      unfold sout0_B_0 sout0_B_1
      have e4 : (⟨k, hk⟩ : Fin cfg0.N).val / 4 = (⟨k + 1, hn⟩ : Fin cfg0.N).val / 4 := by
        show k / 4 = (k + 1) / 4
        omega
      constructor
      · show (outsAt0 m c k hk).2.2.1 = _
        rw [ik, keyBlock_eq m c ⟨k, hk⟩ ⟨k + 1, hn⟩ e4]
      · show (outsAt0 m c k hk).2.2.2 = _
        rw [iv, valueBlock_eq m c ⟨k, hk⟩ ⟨k + 1, hn⟩ e4]

/-- The same, read at the point before a point that is not a head's first tile: the buffers the body finds there hold
    the copies of THIS point's key and value blocks. -/
theorem carried_before (c : Dev nD) (t : Fin cfg0.N) (h0 : ¬t.val % 4 = 0) (hp : t.val - 1 < cfg0.N) :
    (outsAt0 m c (t.val - 1) hp).2.2.1 = k0_pay1 (iblk m c 1 t) ∧ (outsAt0 m c (t.val - 1) hp).2.2.2 = k0_pay2 (iblk m c 2 t) := by
  obtain ⟨ik, iv⟩ := carried m c (t.val - 1) hp
  have e4 : (⟨t.val - 1, hp⟩ : Fin cfg0.N).val / 4 = t.val / 4 := by
    show (t.val - 1) / 4 = t.val / 4
    omega
  exact ⟨ik.trans (congrArg k0_pay1 (keyBlock_eq m c ⟨t.val - 1, hp⟩ t e4)),
    iv.trans (congrArg k0_pay2 (valueBlock_eq m c ⟨t.val - 1, hp⟩ t e4))⟩

/-- THE OUTPUT BLOCK after point t: the attention of the point's query tile against the point's key and value blocks. -/
theorem out_at (c : Dev nD) (t : Fin cfg0.N) :
    (outsAt0 m c t.val t.isLt).1 = k0_pay5 (iblk m c 0 t) (k0_pay1 (iblk m c 1 t)) (k0_pay2 (iblk m c 2 t)) := by
  by_cases h0 : t.val % 4 = 0
  · rw [outsAt0_A m c t h0]
    dsimp only
    exact Pieces.out_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t)
  · have hp : t.val - 1 < cfg0.N := Nat.lt_of_le_of_lt (Nat.sub_le _ _) t.isLt
    obtain ⟨ik, iv⟩ := carried_before m c t h0 hp
    rw [outsAt0_B m c t h0]
    dsimp only
    refine (Pieces.out_later c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t)
      (outsAt0 m c (t.val - 1) hp).2.2.1 (outsAt0 m c (t.val - 1) hp).2.2.2).trans ?_
    rw [ik, iv]

/-- THE SCORE BLOCK after point t: the softmax of the point's query tile against the point's key block. -/
theorem score_at (c : Dev nD) (t : Fin cfg0.N) :
    (outsAt0 m c t.val t.isLt).2.1 = k0_pay4 (iblk m c 0 t) (k0_pay1 (iblk m c 1 t)) := by
  by_cases h0 : t.val % 4 = 0
  · rw [outsAt0_A m c t h0]
    dsimp only
    exact Pieces.score_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t)
  · have hp : t.val - 1 < cfg0.N := Nat.lt_of_le_of_lt (Nat.sub_le _ _) t.isLt
    obtain ⟨ik, iv⟩ := carried_before m c t h0 hp
    rw [outsAt0_B m c t h0]
    dsimp only
    refine (Pieces.score_later c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t)
      (outsAt0 m c (t.val - 1) hp).2.2.1 (outsAt0 m c (t.val - 1) hp).2.2.2).trans ?_
    rw [ik]

end Cert.KernelIdeal.Carried

end
-- ==== Proof.Softmax.lean ====
/-
  Scaled dot-product attention on the extended reals, one query row at a time.

  For one head, with queries q (rows of 64 entries), keys k (2048 rows of 64 entries) and values v (2048 rows of 64
  entries), the row of logits of a query is  s(j) = (Σ_d q(d)·k(j,d)) · c  with the fixed scale c = 1/8; the row's weights
  are  w(j) = exp(s(j) − max_j s(j))  (the maximum taken from −∞); its probabilities  p(j) = w(j) / Σ_j w(j)  — the softmax
  of the logits —; and its output  o(e) = Σ_j p(j)·v(j,e).  The two arrays the computation returns are, for every batch b,
  head h and query position i,  score(b,h,i,j) = p(j)  and  out(b,h,i,e) = o(e)  of the rows q = Q(b,h,i,·), k = K(b,h,·,·),
  v = V(b,h,·,·).  Nothing here depends on a program: these are the functions both programs are shown to compute.
-/
import Idealize.ShloMosaic.PureOps.Ideal
import Idealize.ShloMosaic.Lib.ValueIdx

noncomputable section

namespace Cert.Attention

open Idealize.ShloMosaic Idealize.ShloMosaic.ValueIdx

/-- The scale 1/8 = 1/√64, as the f32 pattern both programs carry. -/
abbrev scale : EReal := Ideal.ofBits .f32 0x3E000000#32

/-- −∞, as the f32 pattern both programs start a maximum from. -/
abbrev negInf : EReal := Ideal.ofBits .f32 0xFF800000#32

/-- The logits of one query row against all 2048 keys: s(j) = (Σ_d q(d)·k(j,d)) · 1/8. -/
def logits (q : Fin 64 → EReal) (k : Fin 2048 → Fin 64 → EReal) (j : Fin 2048) : EReal :=
  (∑ d : Fin 64, q d * k j d) * scale

/-- The maximum of a row, taken from −∞. -/
def rowMax (s : Fin 2048 → EReal) : EReal :=
  (Finset.univ : Finset (Fin 2048)).fold max negInf s

/-- The unnormalised weight exp(s(j) − max s). -/
def weight (s : Fin 2048 → EReal) (j : Fin 2048) : EReal := Ideal.exp (s j - rowMax s)

/-- The softmax of a row: w(j) / Σ_j' w(j'). -/
def prob (s : Fin 2048 → EReal) (j : Fin 2048) : EReal := Ideal.div (weight s j) (∑ j' : Fin 2048, weight s j')

/-- One output entry: Σ_j p(j)·v(j). -/
def mix (s : Fin 2048 → EReal) (v : Fin 2048 → EReal) : EReal := ∑ j : Fin 2048, prob s j * v j

/-- The arrays of queries, keys and values: [batch 2, heads 16, positions 2048, 64 entries]. -/
abbrev QKV : Type := (⟨4, ![2, 16, 2048, 64]⟩ : Shape).Idx → EReal

/-- The logits of query position i of head (b, h). -/
def headLogits (Q K : QKV) (b : Fin 2) (h : Fin 16) (i : Fin 2048) : Fin 2048 → EReal :=
  logits (fun d => Q (ix4 b h i d)) (fun j d => K (ix4 b h j d))

/-- score(b,h,i,j): the attention probabilities. -/
def score (Q K : QKV) : (⟨4, ![2, 16, 2048, 2048]⟩ : Shape).Idx → EReal :=
  fun x => prob (headLogits Q K (x 0) (x 1) (x 2)) (x 3)

/-- out(b,h,i,e): the probabilities applied to the values. -/
def out (Q K V : QKV) : (⟨4, ![2, 16, 2048, 64]⟩ : Shape).Idx → EReal :=
  fun x => mix (headLogits Q K (x 0) (x 1) (x 2)) (fun j => V (ix4 (x 0) (x 1) j (x 3)))

/-- A maximum taken from −∞ is not changed by one more comparison with −∞. -/
theorem max_negInf_rowMax (s : Fin 2048 → EReal) : max negInf (rowMax s) = rowMax s :=
  max_eq_right ((Finset.le_fold_max _).mpr (Or.inl le_rfl))

end Cert.Attention

end
-- ==== Proof.LibProductRowsAt.lean ====
/-
  A product of rows by rows read at an index.

  Dimension numbers of a product [A, K] × [B, K] → [A, B] that contract the SECOND axis of both factors, with no batch
  axis, index the two factors at the result index (p, q) and the contraction index k by (p, k) and (q, k): the result
  is the left factor times the transpose of the right one. So any sum over the contraction index — a product into a zero
  accumulator, a host dot_general — is the sum over k < K of l (p, k) · r (q, k), and reads only row p of the left
  factor and row q of the right one. General: nothing here depends on a particular program. An instance supplies the
  two kept coordinates (`hl0`, `hr0`) and `rfl` four times.
-/
import Idealize.ShloMosaic.Lib.ValueIdx
import Idealize.ShloMosaic.PureOps.Ideal.Laws

noncomputable section

namespace Cert.ProductRowsAt

open Idealize.ShloMosaic Idealize.ShloMosaic.ValueIdx

/-- THE SUM, RE-INDEXED. Dimension numbers that contract axis 1 of both factors and keep the left factor's axis 0 and
    the right factor's axis 0 as the result's rows and columns (`hl0`, `hr0`): the sum over the contraction index is the
    sum over k < K of l (p, k) · r (q, k) at the result index (p, q). -/
theorem product_sum_eq {A B K : Nat} {φ₁ φ₂ : FTy}
    (d : DotDims (⟨2, ![A, K]⟩ : Shape) (⟨2, ![B, K]⟩ : Shape) (⟨2, ![A, B]⟩ : Shape))
    (hr : d.contr.rank = 1) (hs : d.contr.size ⟨0, by omega⟩ = K)
    (hlc : d.lhsContracting = [(1 : Fin 2)]) (hrc : d.rhsContracting = [(1 : Fin 2)])
    (hl0 : ∀ (j : (⟨2, ![A, B]⟩ : Shape).Idx) (q : d.contr.Idx), (d.lhsIdx j q 0).val = (j 0).val)
    (hr0 : ∀ (j : (⟨2, ![A, B]⟩ : Shape).Idx) (q : d.contr.Idx), (d.rhsIdx j q 0).val = (j 1).val)
    (l : FVec Ideal (⟨2, ![A, K]⟩ : Shape) φ₁) (r : FVec Ideal (⟨2, ![B, K]⟩ : Shape) φ₂) (j : (⟨2, ![A, B]⟩ : Shape).Idx) :
    ∑ q : d.contr.Idx, l (d.lhsIdx j q) * r (d.rhsIdx j q)
      = ∑ k : Fin K, l (ix2 (j 0) k) * r (ix2 (j 1) k) := by
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k :=
    funext fun a => Fin.ext (by
      match a with
      | ⟨0, _⟩ => exact hl0 j _
      | ⟨1, _⟩ => exact (d.lhsIdx_val_of_single hlc j _).trans hk)
  have er : d.rhsIdx j ((contrEquiv1 d K hr hs).symm k) = ix2 (j 1) k :=
    funext fun a => Fin.ext (by
      match a with
      | ⟨0, _⟩ => exact hr0 j _
      | ⟨1, _⟩ => exact (d.rhsIdx_val_of_single hrc j _).trans hk)
  exact congrArg₂ (· * ·) (congrArg l el) (congrArg r er)

end Cert.ProductRowsAt

end
-- ==== Proof.LibProductAt.lean ====
/-
  A matrix product read at an index.

  Dimension numbers of a product [A, K] × [K, B] → [A, B] that contract the left factor's axis 1 with the right factor's
  axis 0, with no batch axis, index the two factors at the result index (p, q) and the contraction index k by (p, k) and
  (k, q). So any sum over the contraction index — a product into a zero accumulator, a host dot_general — is the sum
  over k < K of l (p, k) · r (k, q), and in particular reads only row p of the left factor and column q of the right one.
  General: nothing here depends on a particular program. An instance supplies the two kept coordinates (`hl0`, `hr1`:
  each is `unfold DotDims.lhsIdx; rw [dif_neg …, dif_pos …]; rfl` for literal dimension numbers) and `rfl` four times.
-/
import Idealize.ShloMosaic.Lib.ValueIdx
import Idealize.ShloMosaic.PureOps.Ideal.Laws

noncomputable section

namespace Cert.ProductAt

open Idealize.ShloMosaic

/-- The index (p, q) of a two-axis shape, from the two numbers and their bounds. -/
abbrev at2 {n0 n1 : Nat} (p : Nat) (hp : p < n0) (q : Nat) (hq : q < n1) : (⟨2, ![n0, n1]⟩ : Shape).Idx := fun a => match a with
  | ⟨0, _⟩ => ⟨p, hp⟩
  | ⟨1, _⟩ => ⟨q, hq⟩

/-- Equal coordinates give the same index. -/
theorem at2_congr {n0 n1 : Nat} {p p' q q' : Nat} (hp : p < n0) (hp' : p' < n0) (hq : q < n1) (hq' : q' < n1)
    (ep : p = p') (eq : q = q') : (at2 p hp q hq : (⟨2, ![n0, n1]⟩ : Shape).Idx) = at2 p' hp' q' hq' := by
  subst ep; subst eq; rfl

/-- Every index of a two-axis shape is the index of its two coordinates. -/
theorem eq_at2 {n0 n1 : Nat} (j : (⟨2, ![n0, n1]⟩ : Shape).Idx) :
    j = at2 (j 0).val (ValueIdx.idx2_lt0 j) (j 1).val (ValueIdx.idx2_lt1 j) := by
  funext a; match a with | ⟨0, _⟩ => rfl | ⟨1, _⟩ => rfl

/-- THE SUM, RE-INDEXED. Dimension numbers that contract the left factor's axis 1 with the right factor's axis 0 and
    keep the left factor's axis 0 and the right factor's axis 1 as the result's rows and columns (`hl0`, `hr1`): the sum
    over the contraction index is the sum over k < K of l (p, k) · r (k, q) at the result index (p, q). -/
theorem product_sum_eq {A B K : Nat} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hl0 : ∀ (j : (⟨2, ![A, B]⟩ : Shape).Idx) (q : d.contr.Idx), (d.lhsIdx j q 0).val = (j 0).val)
    (hr1 : ∀ (j : (⟨2, ![A, B]⟩ : Shape).Idx) (q : d.contr.Idx), (d.rhsIdx j q 1).val = (j 1).val)
    (l : FVec Ideal (⟨2, ![A, K]⟩ : Shape) φ₁) (r : FVec Ideal (⟨2, ![K, B]⟩ : Shape) φ₂) (j : (⟨2, ![A, B]⟩ : Shape).Idx) :
    ∑ q : d.contr.Idx, l (d.lhsIdx j q) * r (d.rhsIdx j q)
      = ∑ k : Fin K, l (at2 (j 0).val (ValueIdx.idx2_lt0 j) k.val k.isLt) * r (at2 k.val k.isLt (j 1).val (ValueIdx.idx2_lt1 j)) := by
  rw [← Equiv.sum_comp (ValueIdx.contrEquiv1 d K hr hs).symm]
  refine Finset.sum_congr rfl fun k _ => ?_
  have hk := ValueIdx.contrEquiv1_symm_val d K hr hs k
  have el : d.lhsIdx j ((ValueIdx.contrEquiv1 d K hr hs).symm k) = at2 (j 0).val (ValueIdx.idx2_lt0 j) k.val k.isLt :=
    funext fun a => Fin.ext (by
      match a with
      | ⟨0, _⟩ => exact hl0 j _
      | ⟨1, _⟩ => exact (d.lhsIdx_val_of_single hlc j _).trans hk)
  have er : d.rhsIdx j ((ValueIdx.contrEquiv1 d K hr hs).symm k) = at2 k.val k.isLt (j 1).val (ValueIdx.idx2_lt1 j) :=
    funext fun a => Fin.ext (by
      match a with
      | ⟨0, _⟩ => exact (d.rhsIdx_val_of_single hrc j _).trans hk
      | ⟨1, _⟩ => exact hr1 j _)
  rw [el, er]

end Cert.ProductAt

end
-- ==== Proof.LibColumn.lean ====
/-
  A vector as a one-column matrix, read at an index. An array of `a` entries recast to `a` rows of one column holds at
  row `p` (whatever the column coordinate, which can only be 0) the operand's entry `p`: row-major order counts the same
  entries in the same order on both sides.
-/
import Idealize.ShloMosaic.Lib.Pipeline.Value
import Idealize.ShloMosaic.Lib.ValueLayout

namespace Idealize.ShloMosaic.ValueIdx

open Idealize.ShloMosaic

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Idealize.ShloMosaic.ValueIdx
-- ==== Proof.LibLayout.lean ====
/-
  A keepdims column read at an index. An array with one column, broadcast along its unit axis to `b` columns,
  holds at `(p, c)` the operand's entry in row `p`: every column is a copy of the one column.
-/
import Idealize.ShloMosaic.Lib.Pipeline.Value
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibUnitAxes.lean ====
/-
  Two leading unit axes dropped from or added to a matrix, read at an index. A [1, 1, a, b] array and an [a, b] array
  list the same a·b entries in the same row-major order, so a recast between the two shapes holds at (p, d), respectively
  at (0, 0, p, d), the operand's entry at (0, 0, p, d), respectively at (p, d). General: nothing here depends on a
  particular program.
-/
import Idealize.ShloMosaic.Lib.Pipeline.Value
import Idealize.ShloMosaic.Lib.ValueLayout

namespace Idealize.ShloMosaic.ValueIdx

open Idealize.ShloMosaic

variable {α : Type}

/-- A [1,1,a,b] array recast to [a,b] holds at (p, d) the operand's entry (0,0,p,d). -/
theorem shapeCast_11ab_ab_apply {a b : ℕ} (x : (⟨4, ![1, 1, a, b]⟩ : Shape).Idx → α)
    (h : (⟨4, ![1, 1, a, b]⟩ : Shape).ShapeCasts ⟨2, ![a, b]⟩) (p : Fin a) (d : Fin b) :
    shapeCast ⟨2, ![a, b]⟩ x h (ix2 p d) = x (ix4 (0 : Fin 1) (0 : Fin 1) p d) :=
  shapeCast_apply x h _ _ (by
    rw [Shape.rowMajor_val_four, Shape.rowMajor_val_two]
    show ((0 * 1 + 0) * a + p.val) * b + d.val = p.val * b + d.val
    simp only [Nat.zero_mul, Nat.zero_add])

/-- An [a,b] array recast to [1,1,a,b] holds at (0,0,p,d) the operand's entry (p, d). -/
theorem shapeCast_ab_11ab_apply {a b : ℕ} (x : (⟨2, ![a, b]⟩ : Shape).Idx → α)
    (h : (⟨2, ![a, b]⟩ : Shape).ShapeCasts ⟨4, ![1, 1, a, b]⟩) (p : Fin a) (d : Fin b) :
    shapeCast ⟨4, ![1, 1, a, b]⟩ x h (ix4 (0 : Fin 1) (0 : Fin 1) p d) = x (ix2 p d) :=
  shapeCast_apply x h _ _ (by
    rw [Shape.rowMajor_val_four, Shape.rowMajor_val_two]
    show p.val * b + d.val = ((0 * 1 + 0) * a + p.val) * b + d.val
    simp only [Nat.zero_mul, Nat.zero_add])

end Idealize.ShloMosaic.ValueIdx
-- ==== Proof.BlockValue.lean ====
/-
  What the kernel body computes from its blocks, entry by entry.

  At one grid point the body holds a block of 512 query rows x0 (as [1,1,512,64]), and the keys and values of the head as
  two [2048,64] arrays kb and vb (its carried copies, which are the f32 rows themselves once a change of float format is
  the identity). Its stores are: the score block, entry (p, j) = softmax_j of the logits of query row p, and the output
  block, entry (p, e) = Σ_j score(p, j) · vb(j, e). The logits are the first product (rows of x0 against rows of kb,
  both contracted along their second axis) times 1/8; the row maximum and the row sum are the two lane reductions, each
  spread back over its row by a cast [512] → [512,1] and a broadcast [512,1] → [512,2048].
-/
import proofs.«100479_j3607772528847_2_alg».proof.Proof.Gen.KernelIdeal.Skeleton
import proofs.«100479_j3607772528847_2_alg».proof.Proof.Softmax
import proofs.«100479_j3607772528847_2_alg».proof.Proof.LibProductRowsAt
import proofs.«100479_j3607772528847_2_alg».proof.Proof.LibProductAt
import proofs.«100479_j3607772528847_2_alg».proof.Proof.LibColumn
import proofs.«100479_j3607772528847_2_alg».proof.Proof.LibLayout
import proofs.«100479_j3607772528847_2_alg».proof.Proof.LibUnitAxes
import Idealize.ShloMosaic.Lib.Pipeline.Value
import Idealize.ShloMosaic.Lib.ValueLayout
import Idealize.ShloMosaic.PureOps.Ideal.Laws

noncomputable section

namespace Cert.KernelIdeal.BlockValue

open Cert.KernelIdeal Cert.KernelIdeal.Gen Idealize.ShloMosaic Idealize.ShloMosaic.ValueIdx Cert.Attention

/-! ## The carried copies of the keys and the values -/

/-- The copy of the keys the body keeps: entry (j, d) is the key block's entry (0,0,j,d). -/
theorem keys_apply (x1 : FVec Ideal S1x1x2048x64 .f32) (j : Fin 2048) (d : Fin 64) :
    k0_pay1 (F := Ideal) x1 (ix2 j d) = x1 (ix4 (0 : Fin 1) (0 : Fin 1) j d) := by
  unfold k0_pay1
  rw [shapeCast_self]
  exact shapeCast_11ab_ab_apply x1 _ j d

/-- The copy of the values the body keeps: entry (j, e) is the value block's entry (0,0,j,e). -/
theorem values_apply (x2 : FVec Ideal S1x1x2048x64 .f32) (j : Fin 2048) (e : Fin 64) :
    k0_pay2 (F := Ideal) x2 (ix2 j e) = x2 (ix4 (0 : Fin 1) (0 : Fin 1) j e) := by
  unfold k0_pay2
  rw [shapeCast_self]
  exact shapeCast_11ab_ab_apply x2 _ j e

/-! ## The logits of a block -/

/-- The block of logits as the body computes it: the product of the query rows with the key rows, times 1/8. -/
def blockLogits (x0 : FVec Ideal S1x1x512x64 .f32) (kb : FVec Ideal S2048x64 .bf16) : FVec Ideal S512x2048 .f32 :=
  mulf (matmul dot_S512x64_S2048x64_S512x2048_1_1_0_0_n_n none
      (truncf .bf16 (shapeCast S512x64 x0 shapeCasts_S1x1x512x64_S512x64) bitsLt_bf16_f32) kb (constant S512x2048 .f32 0x00000000#32))
    (broadcast S512x2048 (Scalar.ofBits .f32 0x3E000000#32))

/-- Entry (p, j) of the logits: (Σ_d x0(0,0,p,d) · kb(j,d)) · 1/8. -/
theorem blockLogits_apply (x0 : FVec Ideal S1x1x512x64 .f32) (kb : FVec Ideal S2048x64 .bf16) (p : Fin 512) (j : Fin 2048) :
    blockLogits x0 kb (ix2 p j) = logits (fun d => x0 (ix4 (0 : Fin 1) (0 : Fin 1) p d)) (fun j d => kb (ix2 j d)) j := by
  unfold blockLogits logits
  show FloatOps.matmul (F := Ideal) _ _ _ _ _ (ix2 p j) * scale = _
  refine congrArg (· * scale) ?_
  refine (Ideal.matmul_constant_zero_apply dot_S512x64_S2048x64_S512x2048_1_1_0_0_n_n none _ _ (ix2 p j)).trans ?_
  refine (Cert.ProductRowsAt.product_sum_eq dot_S512x64_S2048x64_S512x2048_1_1_0_0_n_n rfl rfl rfl rfl
    (fun i q => by
      unfold DotDims.lhsIdx
      rw [dif_neg (show ¬(0 : Fin S512x64.rank) ∈ dot_S512x64_S2048x64_S512x2048_1_1_0_0_n_n.lhsBatch by decide),
        dif_pos (show (0 : Fin S512x64.rank) ∈ dot_S512x64_S2048x64_S512x2048_1_1_0_0_n_n.lhsNonContracting by decide)]
      rfl)
    (fun i q => by
      unfold DotDims.rhsIdx
      rw [dif_neg (show ¬(0 : Fin S2048x64.rank) ∈ dot_S512x64_S2048x64_S512x2048_1_1_0_0_n_n.rhsBatch by decide),
        dif_pos (show (0 : Fin S2048x64.rank) ∈ dot_S512x64_S2048x64_S512x2048_1_1_0_0_n_n.rhsNonContracting by decide)]
      rfl)
    _ _ (ix2 p j)).trans ?_
  refine Finset.sum_congr rfl fun d _ => ?_
  refine congrArg (· * kb (ix2 j d)) ?_
  exact shapeCast_11ab_ab_apply x0 _ p d

/-! ## A row statistic spread back over its row -/

/-- The row maxima of a [512,2048] block, taken from −∞, as a column spread over the block. -/
def rowMaxCol (v : FVec Ideal S512x2048 .f32) : FVec Ideal S512x2048 .f32 :=
  broadcastTo S512x2048 (shapeCast S512x1
    (multiReduction .maximumf [1] S512 v 0xFF800000#32 reduces_S512x2048_S512 (.inl rfl) rfl) shapeCasts_S512_S512x1)
    broadcasts_S512x1_S512x2048

/-- The row sums of a [512,2048] block, as a column spread over the block. -/
def rowSumCol (v : FVec Ideal S512x2048 .f32) : FVec Ideal S512x2048 .f32 :=
  broadcastTo S512x2048 (shapeCast S512x1
    (multiReduction .add [1] S512 v 0x00000000#32 reduces_S512x2048_S512 (.inl rfl) rfl) shapeCasts_S512_S512x1)
    broadcasts_S512x1_S512x2048

/-- The inserted index of a row reduction: row p with column j put back is (p, j). -/
theorem lift_row (p : Fin 512) (j : Fin 2048) :
    reduces_S512x2048_S512.lift (ix1 p) j = ix2 p j := by
  funext a; apply Fin.ext
  match a with
  | ⟨0, _⟩ => rfl
  | ⟨1, _⟩ => rfl

/-- Entry (p, j) of the spread row maxima is the maximum of row p. -/
theorem rowMaxCol_apply (v : FVec Ideal S512x2048 .f32) (p : Fin 512) (j : Fin 2048) :
    rowMaxCol v (ix2 p j) = rowMax (fun j => v (ix2 p j)) := by
  unfold rowMaxCol
  refine (broadcastTo_a1_ab_apply _ _ p j).trans ?_
  refine (shapeCast_a_a1_apply _ _ p (0 : Fin 1)).trans ?_
  refine (Ideal.multiReduction_maximumf_single v _ reduces_S512x2048_S512 _ _ (ix1 p)).trans ?_
  unfold rowMax
  refine congrArg (fun f => (Finset.univ : Finset (Fin 2048)).fold max negInf f) ?_
  funext j'
  exact congrArg v (lift_row p j')

/-- Entry (p, j) of the spread row sums is the sum of row p. -/
theorem rowSumCol_apply (v : FVec Ideal S512x2048 .f32) (p : Fin 512) (j : Fin 2048) :
    rowSumCol v (ix2 p j) = ∑ j' : Fin 2048, v (ix2 p j') := by
  unfold rowSumCol
  refine (broadcastTo_a1_ab_apply _ _ p j).trans ?_
  refine (shapeCast_a_a1_apply _ _ p (0 : Fin 1)).trans ?_
  refine (Ideal.multiReduction_add_single v _ reduces_S512x2048_S512 _ _ (ix1 p)).trans ?_
  refine Finset.sum_congr rfl fun j' _ => ?_
  exact congrArg v (lift_row p j')

/-! ## The softmax of the rows -/

/-- The rows' softmax as the body computes it: exp(v − row max) over its row sum. -/
def rowsSoftmax (v : FVec Ideal S512x2048 .f32) : FVec Ideal S512x2048 .f32 :=
  divf (exp (subf v (rowMaxCol v))) (rowSumCol (exp (subf v (rowMaxCol v))))

/-- Entry (p, j) of the rows' softmax is the softmax of row p at j. -/
theorem rowsSoftmax_apply (v : FVec Ideal S512x2048 .f32) (p : Fin 512) (j : Fin 2048) :
    rowsSoftmax v (ix2 p j) = prob (fun j => v (ix2 p j)) j := by
  have hw : ∀ j' : Fin 2048, exp (subf v (rowMaxCol v)) (ix2 p j') = weight (fun j => v (ix2 p j)) j' := fun j' => by
    show Ideal.exp (v (ix2 p j') - rowMaxCol v (ix2 p j')) = _
    rw [rowMaxCol_apply]; rfl
  show Ideal.div (exp (subf v (rowMaxCol v)) (ix2 p j)) (rowSumCol (exp (subf v (rowMaxCol v))) (ix2 p j)) = _
  rw [rowSumCol_apply, hw]
  unfold prob
  exact congrArg (Ideal.div _) (Finset.sum_congr rfl fun j' _ => hw j')

/-- The body's probabilities are the rows' softmax of its logits. -/
theorem probs_eq (x0 : FVec Ideal S1x1x512x64 .f32) (kb : FVec Ideal S2048x64 .bf16) :
    k0_pay3 (F := Ideal) x0 kb = rowsSoftmax (blockLogits x0 kb) := rfl

/-- Entry (p, j) of the body's probabilities. -/
theorem probs_apply (x0 : FVec Ideal S1x1x512x64 .f32) (kb : FVec Ideal S2048x64 .bf16) (p : Fin 512) (j : Fin 2048) :
    k0_pay3 (F := Ideal) x0 kb (ix2 p j) = prob (logits (fun d => x0 (ix4 (0 : Fin 1) (0 : Fin 1) p d)) (fun j d => kb (ix2 j d))) j := by
  rw [probs_eq, rowsSoftmax_apply]
  exact congrArg (fun s => prob s j) (funext fun j' => blockLogits_apply x0 kb p j')

/-! ## The two stored blocks -/

/-- The score block the body stores: entry (0,0,p,j) is the softmax of query row p's logits at j. -/
theorem scoreBlock_apply (x0 : FVec Ideal S1x1x512x64 .f32) (kb : FVec Ideal S2048x64 .bf16) (p : Fin 512) (j : Fin 2048) :
    k0_pay4 (F := Ideal) x0 kb (ix4 (0 : Fin 1) (0 : Fin 1) p j)
      = prob (logits (fun d => x0 (ix4 (0 : Fin 1) (0 : Fin 1) p d)) (fun j d => kb (ix2 j d))) j := by
  unfold k0_pay4
  exact (shapeCast_ab_11ab_apply _ _ p j).trans (probs_apply x0 kb p j)

/-- The output block the body stores: entry (0,0,p,e) is Σ_j softmax(p, j) · vb(j, e). -/
theorem outBlock_apply (x0 : FVec Ideal S1x1x512x64 .f32) (kb vb : FVec Ideal S2048x64 .bf16) (p : Fin 512) (e : Fin 64) :
    k0_pay5 (F := Ideal) x0 kb vb (ix4 (0 : Fin 1) (0 : Fin 1) p e)
      = mix (logits (fun d => x0 (ix4 (0 : Fin 1) (0 : Fin 1) p d)) (fun j d => kb (ix2 j d))) (fun j => vb (ix2 j e)) := by
  unfold k0_pay5
  refine (shapeCast_ab_11ab_apply _ _ p e).trans ?_
  refine (Ideal.matmul_constant_zero_apply dot_S512x2048_S2048x64_S512x64_1_0_0_1_n_n none _ _ (ix2 p e)).trans ?_
  refine (Cert.ProductAt.product_sum_eq dot_S512x2048_S2048x64_S512x64_1_0_0_1_n_n rfl rfl rfl rfl
    (fun i q => by
      unfold DotDims.lhsIdx
      rw [dif_neg (show ¬(0 : Fin S512x2048.rank) ∈ dot_S512x2048_S2048x64_S512x64_1_0_0_1_n_n.lhsBatch by decide),
        dif_pos (show (0 : Fin S512x2048.rank) ∈ dot_S512x2048_S2048x64_S512x64_1_0_0_1_n_n.lhsNonContracting by decide)]
      rfl)
    (fun i q => by
      unfold DotDims.rhsIdx
      rw [dif_neg (show ¬(1 : Fin S2048x64.rank) ∈ dot_S512x2048_S2048x64_S512x64_1_0_0_1_n_n.rhsBatch by decide),
        dif_pos (show (1 : Fin S2048x64.rank) ∈ dot_S512x2048_S2048x64_S512x64_1_0_0_1_n_n.rhsNonContracting by decide)]
      rfl)
    _ _ (ix2 p e)).trans ?_
  unfold mix
  refine Finset.sum_congr rfl fun j _ => ?_
  exact congrArg (· * vb (ix2 j e)) (probs_apply x0 kb p j)

end Cert.KernelIdeal.BlockValue

end
-- ==== Proof.KernelValue.lean ====
/-
  The two arrays the kernel leaves: the attention probabilities and their application to the values.

  Point t of the grid is batch b = t / 64, head h = (t / 4) mod 16 and query tile r = t mod 4. Its query block is rows
  512·r … 512·r + 511 of Q(b,h,·,·), its key and value blocks are all of K(b,h,·,·) and V(b,h,·,·); so what the body
  computes from them (the softmax of the logits of each query row, and that softmax applied to the values) is rows
  512·r … 512·r + 511 of score(b,h,·,·) and of out(b,h,·,·) — exactly the blocks the point writes back. The 128 blocks of each
  result tile its array, so each array ends as the whole function.
-/
import proofs.«100479_j3607772528847_2_alg».proof.Proof.Carried
import proofs.«100479_j3607772528847_2_alg».proof.Proof.BlockValue

set_option maxRecDepth 16384

noncomputable section

namespace Cert.KernelIdeal.KernelValue

open Cert.KernelIdeal Cert.KernelIdeal.Gen Cert.KernelIdeal.Value Idealize.ShloMosaic Idealize.ShloMosaic.ValueIdx
open Idealize.ShloMosaic.TcCoe Idealize.SL.Sem Cert.Attention
open Idealize.ShloMosaic.Pipeline (Dat)

/-! ## One tile, as mathematics -/

/-- If x0 is tile r of the queries of head (b, h) and x1 the head's keys, the score block the body stores is tile r of
    score(b,h,·,·). -/
theorem scoreTile (Q K : QKV) (b : Fin 2) (h : Fin 16) (r : Fin 4)
    (x0 : FVec Ideal S1x1x512x64 .f32) (x1 : FVec Ideal S1x1x2048x64 .f32)
    (hq : ∀ (p : Fin 512) (d : Fin 64), x0 (ix4 (0 : Fin 1) (0 : Fin 1) p d) = Q (ix4 b h (⟨r.val * 512 + p.val, by omega⟩ : Fin 2048) d))
    (hk : ∀ (j : Fin 2048) (d : Fin 64), x1 (ix4 (0 : Fin 1) (0 : Fin 1) j d) = K (ix4 b h j d))
    (p : Fin 512) (j : Fin 2048) :
    k0_pay4 (F := Ideal) x0 (k0_pay1 (F := Ideal) x1) (ix4 (0 : Fin 1) (0 : Fin 1) p j)
      = score Q K (ix4 b h (⟨r.val * 512 + p.val, by omega⟩ : Fin 2048) j) := by
  rw [BlockValue.scoreBlock_apply]
  show _ = prob (headLogits Q K b h ⟨r.val * 512 + p.val, _⟩) j
  unfold headLogits
  refine congrArg (fun s => prob s j) ?_
  refine congrArg₂ logits (funext fun d => hq p d) (funext fun j' => funext fun d => ?_)
  rw [BlockValue.keys_apply]; exact hk j' d

/-- … and, with x2 the head's values, the output block is tile r of out(b,h,·,·). -/
theorem outTile (Q K V : QKV) (b : Fin 2) (h : Fin 16) (r : Fin 4)
    (x0 : FVec Ideal S1x1x512x64 .f32) (x1 x2 : FVec Ideal S1x1x2048x64 .f32)
    (hq : ∀ (p : Fin 512) (d : Fin 64), x0 (ix4 (0 : Fin 1) (0 : Fin 1) p d) = Q (ix4 b h (⟨r.val * 512 + p.val, by omega⟩ : Fin 2048) d))
    (hk : ∀ (j : Fin 2048) (d : Fin 64), x1 (ix4 (0 : Fin 1) (0 : Fin 1) j d) = K (ix4 b h j d))
    (hv : ∀ (j : Fin 2048) (e : Fin 64), x2 (ix4 (0 : Fin 1) (0 : Fin 1) j e) = V (ix4 b h j e))
    (p : Fin 512) (e : Fin 64) :
    k0_pay5 (F := Ideal) x0 (k0_pay1 (F := Ideal) x1) (k0_pay2 (F := Ideal) x2) (ix4 (0 : Fin 1) (0 : Fin 1) p e)
      = out Q K V (ix4 b h (⟨r.val * 512 + p.val, by omega⟩ : Fin 2048) e) := by
  rw [BlockValue.outBlock_apply]
  show _ = mix (headLogits Q K b h ⟨r.val * 512 + p.val, _⟩) (fun j => V (ix4 b h j e))
  unfold headLogits
  refine congrArg₂ mix ?_ (funext fun j' => ?_)
  · refine congrArg₂ logits (funext fun d => hq p d) (funext fun j' => funext fun d => ?_)
    rw [BlockValue.keys_apply]; exact hk j' d
  · rw [BlockValue.values_apply]; exact hv j' e

/-! ## The blocks of a point, read off the arrays -/

variable (m : (ℓ : Loc nD τ sig) → Buf (Elt Ideal) ℓ) (ρ : Dev nD → PrngReg)

/-- The query block of point t is tile t mod 4 of Q(t / 64, (t / 4) mod 16, ·, ·). -/
theorem queryBlock_apply (c : Dev nD) (t : Fin cfg0.N) (hN : t.val < 128) (p : Fin 512) (d : Fin 64) :
    (iblk m c 0 t : FVec Ideal S1x1x512x64 .f32) (ix4 (0 : Fin 1) (0 : Fin 1) p d)
      = (V m c main_arg0 : QKV) (ix4 (⟨t.val / 64, by omega⟩ : Fin 2) (⟨t.val / 4 % 16, by omega⟩ : Fin 16)
          (⟨t.val % 4 * 512 + p.val, by omega⟩ : Fin 2048) d) := by
  obtain ⟨⟨a0, a1, a2, a3⟩, -, -, -, -⟩ := Carried.index_facts t
  show V m c main_arg0 (((cfg0.win 0).blk t).view.emb (ix4 (0 : Fin 1) (0 : Fin 1) p d)) = _
  refine congrArg (V m c main_arg0) (funext fun a => Fin.ext ?_)
  match a with
  | ⟨0, _⟩ => show win0_0.index t (0 : Fin 4) * 1 + 1 * 0 = t.val / 64; omega
  | ⟨1, _⟩ => show win0_0.index t (1 : Fin 4) * 1 + 1 * 0 = t.val / 4 % 16; omega
  | ⟨2, _⟩ => show win0_0.index t (2 : Fin 4) * 512 + 1 * p.val = t.val % 4 * 512 + p.val; omega
  | ⟨3, _⟩ => show win0_0.index t (3 : Fin 4) * 64 + 1 * d.val = d.val; omega

/-- The key block of point t is all of K(t / 64, (t / 4) mod 16, ·, ·). -/
theorem keyBlock_apply (c : Dev nD) (t : Fin cfg0.N) (hN : t.val < 128) (j : Fin 2048) (d : Fin 64) :
    (iblk m c 1 t : FVec Ideal S1x1x2048x64 .f32) (ix4 (0 : Fin 1) (0 : Fin 1) j d)
      = (V m c main_arg1 : QKV) (ix4 (⟨t.val / 64, by omega⟩ : Fin 2) (⟨t.val / 4 % 16, by omega⟩ : Fin 16) j d) := by
  obtain ⟨-, ⟨a0, a1, a2, a3⟩, -, -, -⟩ := Carried.index_facts t
  show V m c main_arg1 (((cfg0.win 1).blk t).view.emb (ix4 (0 : Fin 1) (0 : Fin 1) j d)) = _
  refine congrArg (V m c main_arg1) (funext fun a => Fin.ext ?_)
  match a with
  | ⟨0, _⟩ => show win0_1.index t (0 : Fin 4) * 1 + 1 * 0 = t.val / 64; omega
  | ⟨1, _⟩ => show win0_1.index t (1 : Fin 4) * 1 + 1 * 0 = t.val / 4 % 16; omega
  | ⟨2, _⟩ => show win0_1.index t (2 : Fin 4) * 2048 + 1 * j.val = j.val; omega
  | ⟨3, _⟩ => show win0_1.index t (3 : Fin 4) * 64 + 1 * d.val = d.val; omega

/-- The value block of point t is all of V(t / 64, (t / 4) mod 16, ·, ·). -/
theorem valueBlock_apply (c : Dev nD) (t : Fin cfg0.N) (hN : t.val < 128) (j : Fin 2048) (e : Fin 64) :
    (iblk m c 2 t : FVec Ideal S1x1x2048x64 .f32) (ix4 (0 : Fin 1) (0 : Fin 1) j e)
      = (V m c main_arg2 : QKV) (ix4 (⟨t.val / 64, by omega⟩ : Fin 2) (⟨t.val / 4 % 16, by omega⟩ : Fin 16) j e) := by
  obtain ⟨-, -, ⟨a0, a1, a2, a3⟩, -, -⟩ := Carried.index_facts t
  show V m c main_arg2 (((cfg0.win 2).blk t).view.emb (ix4 (0 : Fin 1) (0 : Fin 1) j e)) = _
  refine congrArg (V m c main_arg2) (funext fun a => Fin.ext ?_)
  match a with
  | ⟨0, _⟩ => show win0_2.index t (0 : Fin 4) * 1 + 1 * 0 = t.val / 64; omega
  | ⟨1, _⟩ => show win0_2.index t (1 : Fin 4) * 1 + 1 * 0 = t.val / 4 % 16; omega
  | ⟨2, _⟩ => show win0_2.index t (2 : Fin 4) * 2048 + 1 * j.val = j.val; omega
  | ⟨3, _⟩ => show win0_2.index t (3 : Fin 4) * 64 + 1 * e.val = e.val; omega

/-! ## What each point writes back -/

/-- WHAT POINT t WRITES BACK to the score array is block t of the attention probabilities of the argument arrays. -/
theorem flushedScore (c : Dev nD) (t : Fin cfg0.N) :
    (dats m 0 c).flushed 4 t
      = ((cfg0.win 4).blk t).view.read (Elt Ideal) (score (V m c main_arg0) (V m c main_arg1)) := by
  have hN : t.val < 128 := lt_of_lt_of_eq t.isLt N_0
  rw [flushed4, Carried.score_at m c t]
  obtain ⟨-, -, -, -, ⟨a0, a1, a2, a3⟩⟩ := Carried.index_facts t
  funext y
  obtain ⟨u0, u1, p, j, rfl⟩ : ∃ (u0 u1 : Fin 1) (p : Fin 512) (j : Fin 2048), y = ix4 u0 u1 p j := ⟨y 0, y 1, y 2, y 3, eq_ix4 y⟩
  obtain rfl : u0 = 0 := Subsingleton.elim _ _
  obtain rfl : u1 = 0 := Subsingleton.elim _ _
  show k0_pay4 (F := Ideal) (iblk m c 0 t) (k0_pay1 (F := Ideal) (iblk m c 1 t)) (ix4 (0 : Fin 1) (0 : Fin 1) p j)
    = score (V m c main_arg0) (V m c main_arg1) (((cfg0.win 4).blk t).view.emb (ix4 (0 : Fin 1) (0 : Fin 1) p j))
  have e : ((cfg0.win 4).blk t).view.emb (ix4 (0 : Fin 1) (0 : Fin 1) p j)
      = ix4 (⟨t.val / 64, by omega⟩ : Fin 2) (⟨t.val / 4 % 16, by omega⟩ : Fin 16) (⟨t.val % 4 * 512 + p.val, by omega⟩ : Fin 2048) j := by
    funext a; apply Fin.ext
    match a with
    | ⟨0, _⟩ => show win0_4.index t (0 : Fin 4) * 1 + 1 * 0 = t.val / 64; omega
    | ⟨1, _⟩ => show win0_4.index t (1 : Fin 4) * 1 + 1 * 0 = t.val / 4 % 16; omega
    | ⟨2, _⟩ => show win0_4.index t (2 : Fin 4) * 512 + 1 * p.val = t.val % 4 * 512 + p.val; omega
    | ⟨3, _⟩ => show win0_4.index t (3 : Fin 4) * 2048 + 1 * j.val = j.val; omega
  rw [e]
  exact scoreTile (V m c main_arg0) (V m c main_arg1) ⟨t.val / 64, by omega⟩ ⟨t.val / 4 % 16, by omega⟩ ⟨t.val % 4, by omega⟩
    (iblk m c 0 t) (iblk m c 1 t) (queryBlock_apply m c t hN) (keyBlock_apply m c t hN) p j

/-- WHAT POINT t WRITES BACK to the output array is block t of the attention output of the argument arrays. -/
theorem flushedOut (c : Dev nD) (t : Fin cfg0.N) :
    (dats m 0 c).flushed 3 t
      = ((cfg0.win 3).blk t).view.read (Elt Ideal) (out (V m c main_arg0) (V m c main_arg1) (V m c main_arg2)) := by
  have hN : t.val < 128 := lt_of_lt_of_eq t.isLt N_0
  rw [flushed3, Carried.out_at m c t]
  obtain ⟨-, -, -, ⟨a0, a1, a2, a3⟩, -⟩ := Carried.index_facts t
  funext y
  obtain ⟨u0, u1, p, e, rfl⟩ : ∃ (u0 u1 : Fin 1) (p : Fin 512) (e : Fin 64), y = ix4 u0 u1 p e := ⟨y 0, y 1, y 2, y 3, eq_ix4 y⟩
  obtain rfl : u0 = 0 := Subsingleton.elim _ _
  obtain rfl : u1 = 0 := Subsingleton.elim _ _
  show k0_pay5 (F := Ideal) (iblk m c 0 t) (k0_pay1 (F := Ideal) (iblk m c 1 t)) (k0_pay2 (F := Ideal) (iblk m c 2 t)) (ix4 (0 : Fin 1) (0 : Fin 1) p e)
    = out (V m c main_arg0) (V m c main_arg1) (V m c main_arg2) (((cfg0.win 3).blk t).view.emb (ix4 (0 : Fin 1) (0 : Fin 1) p e))
  have e' : ((cfg0.win 3).blk t).view.emb (ix4 (0 : Fin 1) (0 : Fin 1) p e)
      = ix4 (⟨t.val / 64, by omega⟩ : Fin 2) (⟨t.val / 4 % 16, by omega⟩ : Fin 16) (⟨t.val % 4 * 512 + p.val, by omega⟩ : Fin 2048) e := by
    funext a; apply Fin.ext
    match a with
    | ⟨0, _⟩ => show win0_3.index t (0 : Fin 4) * 1 + 1 * 0 = t.val / 64; omega
    | ⟨1, _⟩ => show win0_3.index t (1 : Fin 4) * 1 + 1 * 0 = t.val / 4 % 16; omega
    | ⟨2, _⟩ => show win0_3.index t (2 : Fin 4) * 512 + 1 * p.val = t.val % 4 * 512 + p.val; omega
    | ⟨3, _⟩ => show win0_3.index t (3 : Fin 4) * 64 + 1 * e.val = e.val; omega
  rw [e']
  exact outTile (V m c main_arg0) (V m c main_arg1) (V m c main_arg2) ⟨t.val / 64, by omega⟩ ⟨t.val / 4 % 16, by omega⟩ ⟨t.val % 4, by omega⟩
    (iblk m c 0 t) (iblk m c 1 t) (iblk m c 2 t) (queryBlock_apply m c t hN) (keyBlock_apply m c t hN) (valueBlock_apply m c t hN) p e

/-! ## The blocks tile the arrays -/

/-- An index of the score array is in point t's block iff each coordinate is in the block's range on its axis. -/
theorem mem_scoreBlock (t : Fin cfg0.N) (x : S2x16x2048x2048.Idx) :
    x ∈ ((cfg0.win 4).blk t).view.set ↔ ∀ a : Fin 4, win0_4.index t a * S1x1x512x2048.size a ≤ (x a).val
      ∧ (x a).val < win0_4.index t a * S1x1x512x2048.size a + S1x1x512x2048.size a := by
  show x ∈ ((View.whole main_v0_1).slice (win0_4.rect t)).set ↔ _
  rw [View.set_slice_whole, Rect.mem_set_unit]
  exact Iff.rfl

/-- An index of the output array is in point t's block iff each coordinate is in the block's range on its axis. -/
theorem mem_outBlock (t : Fin cfg0.N) (x : S2x16x2048x64.Idx) :
    x ∈ ((cfg0.win 3).blk t).view.set ↔ ∀ a : Fin 4, win0_3.index t a * S1x1x512x64.size a ≤ (x a).val
      ∧ (x a).val < win0_3.index t a * S1x1x512x64.size a + S1x1x512x64.size a := by
  show x ∈ ((View.whole main_v0_0).slice (win0_3.rect t)).set ↔ _
  rw [View.set_slice_whole, Rect.mem_set_unit]
  exact Iff.rfl

/-- Every entry (b, h, i, j) of the score array is in the block of the point (b, h, i / 512). -/
theorem scoreCover (x : S2x16x2048x2048.Idx) :
    ∃ t : Fin cfg0.N, (cfg0.win 4).flush t = true ∧ x ∈ ((cfg0.win 4).blk t).view.set := by
  have h0 : (x 0).val < 2 := (x 0).isLt
  have h1 : (x 1).val < 16 := (x 1).isLt
  have h2 : (x 2).val < 2048 := (x 2).isLt
  have h3 : (x 3).val < 2048 := (x 3).isLt
  have hlt : ((x 0).val * 16 + (x 1).val) * 4 + (x 2).val / 512 < cfg0.N := by
    rw [show cfg0.N = 128 from N_0]; omega
  refine ⟨⟨((x 0).val * 16 + (x 1).val) * 4 + (x 2).val / 512, hlt⟩, flush0_4 _, ?_⟩
  obtain ⟨-, -, -, -, ⟨a0, a1, a2, a3⟩⟩ := Carried.index_facts ⟨((x 0).val * 16 + (x 1).val) * 4 + (x 2).val / 512, hlt⟩
  rw [mem_scoreBlock]
  intro a
  match a with
  | ⟨0, _⟩ => show win0_4.index _ (0 : Fin 4) * 1 ≤ (x 0).val ∧ (x 0).val < win0_4.index _ (0 : Fin 4) * 1 + 1; dsimp only at a0; omega
  | ⟨1, _⟩ => show win0_4.index _ (1 : Fin 4) * 1 ≤ (x 1).val ∧ (x 1).val < win0_4.index _ (1 : Fin 4) * 1 + 1; dsimp only at a1; omega
  | ⟨2, _⟩ => show win0_4.index _ (2 : Fin 4) * 512 ≤ (x 2).val ∧ (x 2).val < win0_4.index _ (2 : Fin 4) * 512 + 512; dsimp only at a2; omega
  | ⟨3, _⟩ => show win0_4.index _ (3 : Fin 4) * 2048 ≤ (x 3).val ∧ (x 3).val < win0_4.index _ (3 : Fin 4) * 2048 + 2048; dsimp only at a3; omega

/-- Every entry (b, h, i, e) of the output array is in the block of the point (b, h, i / 512). -/
theorem outCover (x : S2x16x2048x64.Idx) :
    ∃ t : Fin cfg0.N, (cfg0.win 3).flush t = true ∧ x ∈ ((cfg0.win 3).blk t).view.set := by
  have h0 : (x 0).val < 2 := (x 0).isLt
  have h1 : (x 1).val < 16 := (x 1).isLt
  have h2 : (x 2).val < 2048 := (x 2).isLt
  have h3 : (x 3).val < 64 := (x 3).isLt
  have hlt : ((x 0).val * 16 + (x 1).val) * 4 + (x 2).val / 512 < cfg0.N := by
    rw [show cfg0.N = 128 from N_0]; omega
  refine ⟨⟨((x 0).val * 16 + (x 1).val) * 4 + (x 2).val / 512, hlt⟩, flush0_3 _, ?_⟩
  obtain ⟨-, -, -, ⟨a0, a1, a2, a3⟩, -⟩ := Carried.index_facts ⟨((x 0).val * 16 + (x 1).val) * 4 + (x 2).val / 512, hlt⟩
  rw [mem_outBlock]
  intro a
  match a with
  | ⟨0, _⟩ => show win0_3.index _ (0 : Fin 4) * 1 ≤ (x 0).val ∧ (x 0).val < win0_3.index _ (0 : Fin 4) * 1 + 1; dsimp only at a0; omega
  | ⟨1, _⟩ => show win0_3.index _ (1 : Fin 4) * 1 ≤ (x 1).val ∧ (x 1).val < win0_3.index _ (1 : Fin 4) * 1 + 1; dsimp only at a1; omega
  | ⟨2, _⟩ => show win0_3.index _ (2 : Fin 4) * 512 ≤ (x 2).val ∧ (x 2).val < win0_3.index _ (2 : Fin 4) * 512 + 512; dsimp only at a2; omega
  | ⟨3, _⟩ => show win0_3.index _ (3 : Fin 4) * 64 ≤ (x 3).val ∧ (x 3).val < win0_3.index _ (3 : Fin 4) * 64 + 64; dsimp only at a3; omega

/-! ## The arrays after the run -/

/-- The score array ends as the attention probabilities of the argument arrays. -/
theorem finalScore (c : Dev nD) :
    (dats m 0 c).arrAt 4 cfg0.N = score (m ((c : Thread nD τ).loc main_arg0)) (m ((c : Thread nD τ).loc main_arg1)) :=
  (dats m 0 c).arrAt_eq_of_cover 4 (score (V m c main_arg0) (V m c main_arg1)) (fun t _ => flushedScore m c t) scoreCover

/-- The output array ends as the attention output of the argument arrays. -/
theorem finalOut (c : Dev nD) :
    (dats m 0 c).arrAt 3 cfg0.N = out (m ((c : Thread nD τ).loc main_arg0)) (m ((c : Thread nD τ).loc main_arg1)) (m ((c : Thread nD τ).loc main_arg2)) :=
  (dats m 0 c).arrAt_eq_of_cover 3 (out (V m c main_arg0) (V m c main_arg1) (V m c main_arg2)) (fun t _ => flushedOut m c t) outCover

/-- THE RUN, READ: every weakly fair execution of the kernel terminates with the output array at the attention output
    and the score array at the attention probabilities of the arguments, the arguments unchanged. -/
theorem run : θ_run defs (onTc (τ := τ) (main (F := Ideal))) ⟨m, fun _ => 0, ρ⟩ fun r => ∀ c : Dev nD,
      r.2.mem ((c : Thread nD τ).loc main_v0_0) = out (m ((c : Thread nD τ).loc main_arg0)) (m ((c : Thread nD τ).loc main_arg1)) (m ((c : Thread nD τ).loc main_arg2))
      ∧ r.2.mem ((c : Thread nD τ).loc main_v0_1) = score (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (finalOut m c), (h c).2.1.trans (finalScore m c), (h c).2.2⟩)
    (run_blocks m ρ)

end Cert.KernelIdeal.KernelValue

end
-- ==== Proof.ReferenceValue.lean ====
/-
  The reference computes the attention probabilities and their application to the values.

  Read one operation at a time at an index (b, h, i, ·): the first product contracts the last axis of the queries and the
  keys within a head, so its entry (b,h,i,j) times 1/8 is the logit s(j) of query position i; the maximum over the last
  axis from −∞, compared once more with −∞, is the row's maximum; the exponential of the difference is the weight; the sum
  over the last axis from 0 is the row's total; the quotient is the probability; and the second product contracts the
  key position, giving Σ_j p(j)·V(b,h,j,e).
-/
import proofs.«100479_j3607772528847_2_alg».proof.Proof.Gen.ReferenceIdeal.Read
import proofs.«100479_j3607772528847_2_alg».proof.Proof.Softmax
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Attention

variable (Q K V : (⟨S2x16x2048x64, .f32⟩ : BufTy).Contents (Elt Ideal))

/-! ## The composed index maps at (b, h, i, ·) -/

theorem lidx_logit (b : Fin 2) (h : Fin 16) (i j : Fin 2048) (d : Fin 64) :
    lidx_main_v0 (ix4 b h i j) d = ix4 b h i d :=
  funext fun a => by match a with | ⟨0, _⟩ => rfl | ⟨1, _⟩ => rfl | ⟨2, _⟩ => rfl | ⟨3, _⟩ => rfl

theorem ridx_logit (b : Fin 2) (h : Fin 16) (i j : Fin 2048) (d : Fin 64) :
    ridx_main_v0 (ix4 b h i j) d = ix4 b h j d :=
  funext fun a => by match a with | ⟨0, _⟩ => rfl | ⟨1, _⟩ => rfl | ⟨2, _⟩ => rfl | ⟨3, _⟩ => rfl

theorem idx_rowMax (b : Fin 2) (h : Fin 16) (i j : Fin 2048) :
    idx_main_v6 (idx_main_v7 (ix4 b h i j)) = ix3 b h i :=
  funext fun a => by match a with | ⟨0, _⟩ => rfl | ⟨1, _⟩ => rfl | ⟨2, _⟩ => rfl

theorem idx_rowSum (b : Fin 2) (h : Fin 16) (i j : Fin 2048) :
    idx_main_v11 (idx_main_v12 (ix4 b h i j)) = ix3 b h i :=
  funext fun a => by match a with | ⟨0, _⟩ => rfl | ⟨1, _⟩ => rfl | ⟨2, _⟩ => rfl

theorem idx_sum (b : Fin 2) (h : Fin 16) (i j : Fin 2048) :
    idx_main_v10 (ix3 b h i) j = ix4 b h i j :=
  funext fun a => by match a with | ⟨0, _⟩ => rfl | ⟨1, _⟩ => rfl | ⟨2, _⟩ => rfl | ⟨3, _⟩ => rfl

theorem lidx_out (b : Fin 2) (h : Fin 16) (i : Fin 2048) (e : Fin 64) (j : Fin 2048) :
    lidx_main_v14 (ix4 b h i e) j = ix4 b h i j :=
  funext fun a => by match a with | ⟨0, _⟩ => rfl | ⟨1, _⟩ => rfl | ⟨2, _⟩ => rfl | ⟨3, _⟩ => rfl

theorem ridx_out (b : Fin 2) (h : Fin 16) (i : Fin 2048) (e : Fin 64) (j : Fin 2048) :
    ridx_main_v14 (ix4 b h i e) j = ix4 b h j e :=
  funext fun a => by match a with | ⟨0, _⟩ => rfl | ⟨1, _⟩ => rfl | ⟨2, _⟩ => rfl | ⟨3, _⟩ => rfl

/-- The last axis of the [2,16,2048,2048] array is the one the two reductions drop. -/
theorem dropsLast : S2x16x2048x2048.Reduces [3] S2x16x2048 := by decide

theorem lift_last (b : Fin 2) (h : Fin 16) (i j : Fin 2048) :
    dropsLast.lift (ix3 b h i) j = ix4 b h i j := by
  funext a; apply Fin.ext
  match a with
  | ⟨0, _⟩ => rfl
  | ⟨1, _⟩ => rfl
  | ⟨2, _⟩ => rfl
  | ⟨3, _⟩ => rfl

/-- A maximum over the last axis, read at (b,h,i): the fold of max from the initial value over the row's entries. -/
theorem fold_last (x : S2x16x2048x2048.Idx → EReal) (init : S_.Idx → EReal) (b : Fin 2) (h : Fin 16) (i : Fin 2048) :
    Host.reduce (FloatOps.maximumf (F := Ideal) (φ := .f32)) x init reducesTo_S2x16x2048x2048_S2x16x2048_d3 h_S_ (ix3 b h i)
      = (Finset.univ : Finset (Fin 2048)).fold max (init (Shape.Idx.first h_S_)) (fun j => x (ix4 b h i j)) := by
  refine (Host.reduce_eq_fold_single (FloatOps.maximumf (F := Ideal) (φ := .f32)) x init
    reducesTo_S2x16x2048x2048_S2x16x2048_d3 dropsLast h_S_ (ix3 b h i)).trans ?_
  refine Finset.fold_congr fun j _ => ?_
  exact congrArg x (lift_last b h i j)

/-! ## Stage by stage -/

/-- The scaled product at (b,h,i,j) is the logit s(j) of query position i. -/
theorem logit_at (b : Fin 2) (h : Fin 16) (i j : Fin 2048) :
    val_main_v2 (F := Ideal) Q K (ix4 b h i j) = headLogits Q K b h i j := by
  rw [val_main_v2_apply, val_main_v0_apply, val_main_v1_apply, val_main_cst_apply]
  unfold headLogits logits
  show (∑ d : Fin 64, Q (lidx_main_v0 (ix4 b h i j) d) * K (ridx_main_v0 (ix4 b h i j) d)) * scale = _
  refine congrArg (· * scale) (Finset.sum_congr rfl fun d _ => ?_)
  rw [lidx_logit, ridx_logit]

/-- The maximum over the last axis at (b,h,i) is the row's maximum from −∞. -/
theorem max_at (b : Fin 2) (h : Fin 16) (i : Fin 2048) :
    val_main_v3 (F := Ideal) Q K (ix3 b h i) = rowMax (headLogits Q K b h i) := by
  unfold val_main_v3
  refine (fold_last (val_main_v2 (F := Ideal) Q K) (val_main_cst_0 (F := Ideal)) b h i).trans ?_
  unfold rowMax
  show (Finset.univ : Finset (Fin 2048)).fold max negInf _ = (Finset.univ : Finset (Fin 2048)).fold max negInf _
  refine Finset.fold_congr fun j _ => ?_
  exact logit_at Q K b h i j

/-- The subtracted term at (b,h,i,j): the row's maximum (one more comparison with −∞ changes nothing). -/
theorem shift_at (b : Fin 2) (h : Fin 16) (i j : Fin 2048) :
    val_main_v7 (F := Ideal) Q K (ix4 b h i j) = rowMax (headLogits Q K b h i) := by
  rw [val_main_v7_apply, val_main_v6_apply, idx_rowMax, val_main_v5_apply, val_main_v4_apply, val_main_cst_1_apply, max_at]
  exact max_negInf_rowMax _

/-- The exponential at (b,h,i,j): the weight of j in row i. -/
theorem weight_at (b : Fin 2) (h : Fin 16) (i j : Fin 2048) :
    val_main_v9 (F := Ideal) Q K (ix4 b h i j) = weight (headLogits Q K b h i) j := by
  rw [val_main_v9_apply, val_main_v8_apply, shift_at, logit_at]
  rfl

/-- The sum over the last axis at (b,h,i): the row's total weight. -/
theorem total_at (b : Fin 2) (h : Fin 16) (i : Fin 2048) :
    val_main_v10 (F := Ideal) Q K (ix3 b h i) = ∑ j : Fin 2048, weight (headLogits Q K b h i) j := by
  rw [val_main_v10_apply, val_main_cst_2_apply]
  show Ideal.ofBits .f32 0x00000000#32 + _ = _
  rw [Ideal.ofBits_zero_f32, zero_add]
  refine Finset.sum_congr rfl fun j _ => ?_
  rw [idx_sum, weight_at]

/-- The quotient at (b,h,i,j): the probability of j in row i. -/
theorem prob_at (b : Fin 2) (h : Fin 16) (i j : Fin 2048) :
    val_main_v13 (F := Ideal) Q K (ix4 b h i j) = prob (headLogits Q K b h i) j := by
  rw [val_main_v13_apply, val_main_v12_apply, val_main_v11_apply, idx_rowSum, total_at, weight_at]
  rfl

/-- The second product at (b,h,i,e): the probabilities of row i applied to column e of the head's values. -/
theorem out_at (b : Fin 2) (h : Fin 16) (i : Fin 2048) (e : Fin 64) :
    val_main_v14 (F := Ideal) Q K V (ix4 b h i e) = mix (headLogits Q K b h i) (fun j => V (ix4 b h j e)) := by
  rw [val_main_v14_apply]
  unfold mix
  refine Finset.sum_congr rfl fun j _ => ?_
  rw [lidx_out, ridx_out, prob_at]

/-! ## The two results -/

/-- The reference's second result is the array of attention probabilities. -/
theorem score_eq : val_main_v13 (F := Ideal) Q K = score Q K := by
  funext x
  obtain ⟨b, h, i, j, rfl⟩ : ∃ (b : Fin 2) (h : Fin 16) (i j : Fin 2048), x = ix4 b h i j := ⟨x 0, x 1, x 2, x 3, eq_ix4 x⟩
  exact prob_at Q K b h i j

/-- The reference's first result is the probabilities applied to the values. -/
theorem out_eq : val_main_v14 (F := Ideal) Q K V = out Q K V := by
  funext x
  obtain ⟨b, h, i, e, rfl⟩ : ∃ (b : Fin 2) (h : Fin 16) (i : Fin 2048) (e : Fin 64), x = ix4 b h i e := ⟨x 0, x 1, x 2, x 3, eq_ix4 x⟩
  exact out_at Q K V b h i e

end Cert.ReferenceIdeal.RefValue

end
-- ==== Proof.lean ====
/-
  The kernel and the reference compute the same attention.

  For every batch b, head h and query position i both programs return  score(b,h,i,·) = softmax_j((Σ_d Q(b,h,i,d)·K(b,h,j,d))/8)
  and  out(b,h,i,e) = Σ_j score(b,h,i,j)·V(b,h,j,e)  as extended reals: the kernel tile by tile (512 query rows at a time,
  against copies of the head's keys and values that it makes at the head's first tile and reuses at the other three), the
  reference on the whole arrays at once. A change of float format is the identity on the extended reals, a product into a
  zero accumulator is the contraction's sum, and a sum or a maximum does not depend on the order of its terms, so the two
  are the same functions of the three arguments, index by index; no property of the inputs is needed for that. The
  idealized kernel is the kernel's own text (no rewrite was made), so the preservation claim has nothing to state.
-/
import proofs.«100479_j3607772528847_2_alg».proof.Defs
import proofs.«100479_j3607772528847_2_alg».proof.Proof.Gen.Kernel
import proofs.«100479_j3607772528847_2_alg».proof.Proof.Gen.Kernel.Frame
import proofs.«100479_j3607772528847_2_alg».proof.Proof.Gen.KernelIdeal
import proofs.«100479_j3607772528847_2_alg».proof.Proof.Gen.KernelIdeal.Frame
import proofs.«100479_j3607772528847_2_alg».proof.Proof.Gen.KernelIdeal.Value
import proofs.«100479_j3607772528847_2_alg».proof.Proof.Gen.ReferenceIdeal
import proofs.«100479_j3607772528847_2_alg».proof.Proof.Gen.ReferenceIdeal.Run
import proofs.«100479_j3607772528847_2_alg».proof.Proof.Gen.ReferenceIdeal.Read
import proofs.«100479_j3607772528847_2_alg».proof.Proof.Gen.Pre_finite_inputs
import proofs.«100479_j3607772528847_2_alg».proof.Proof.KernelValue
import proofs.«100479_j3607772528847_2_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs to the end and leaves its three arguments as they were. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- So does the reference: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- No operation was rewritten on the way to the extended reals. -/
theorem preserves : Cert.preserves_Kernel_KernelIdeal := trivial

/-- Both programs end with the output array at the attention output and the score array at the attention
    probabilities of the (agreeing) arguments. -/
theorem algebraic : Cert.algebraic_KernelIdeal_ReferenceIdeal := by
  intro m ρ m' ρ' _ hagree
  refine ⟨_, _, Cert.KernelIdeal.KernelValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v14_eq, Cert.ReferenceIdeal.RefValue.out_eq,
      (hagree c).1, (hagree c).2.1, (hagree c).2.2]
  · rw [(h c).2.1, Cert.ReferenceIdeal.Read.val_main_v13_eq, Cert.ReferenceIdeal.RefValue.score_eq,
      (hagree c).1, (hagree c).2.1]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
